-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S1 : Shape := ⟨1, ![1]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S1600000 .f32) (main_arg4 : FVec F S64x64 .f32) (main_arg5 : FVec F S1 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S1 : Shape := ⟨1, ![1]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S50000x128 : Shape := ⟨2, ![50000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S1x1 : Shape := ⟨2, ![1, 1]⟩
abbrev S5000x128 : Shape := ⟨2, ![5000, 128]⟩

abbrev nBuf : Space → Nat
  | .hbm => 37
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S1, .f32⟩
  | .hbm, ⟨6, _⟩ => ⟨S64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S64x64, .f32⟩
  | .hbm, ⟨27, _⟩ => ⟨S64x128, .f32⟩
  | .hbm, ⟨28, _⟩ => ⟨S64x128, .f32⟩
  | .hbm, ⟨29, _⟩ => ⟨S128x128, .f32⟩
  | .hbm, ⟨30, _⟩ => ⟨S128, .f32⟩
  | .hbm, ⟨31, _⟩ => ⟨S1x128, .f32⟩
  | .hbm, ⟨32, _⟩ => ⟨S1x1, .f32⟩
  | .hbm, ⟨33, _⟩ => ⟨S50000x128, .f32⟩
  | .hbm, ⟨34, _⟩ => ⟨S50000x128, .f32⟩
  | .hbm, ⟨35, _⟩ => ⟨S100000x64, .f32⟩
  | .hbm, ⟨36, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S1x1, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000x64_S50000x128 : S100000x64.ShapeCasts S50000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  shapeCasts_S1_S1x1 : S1.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S1 : Shape := ⟨1, ![1]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x1 : Shape := ⟨2, ![1, 1]⟩
abbrev S1x64 : Shape := ⟨2, ![1, 64]⟩

abbrev nBuf : Space → Nat
  | .hbm => 31
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S1, .f32⟩
  | .hbm, ⟨6, _⟩ => ⟨S64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x1, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x64_0_1 : S1x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.NodeUpdate.lean ====
/-
  One graph layer's node update, as functions of the argument arrays, index by index, on the extended reals.

  With `agg` the neighbour sum of each node (a [100000, 64] array: the scatter-add of the scaled gathered rows,
  which both programs compute by the same host operations and which is never opened here), `x` the node
  features, `eps` the self-loop weight, `w` the [64, 64] weight and `b` the bias:

      rep[n, d] = agg[n, d] + eps · x[n, d]
      out[n, d] = (Σ k < 64, rep[n, k] · w[k, d]) + b[d]

  The kernel works on PACKED rows: rows 2r and 2r + 1 of a [100000, 64] array side by side as row r of a
  [50000, 128] array (a row-major reshape moves nothing). On packed rows the update reads

      repPacked[r, c] = aggP[r, c] + e · xP[r, c]
      outPacked[r, c] = (Σ k < 128, repPacked[r, k] · wB[k, c]) + bB[0, c]

  with `wB` the [128, 128] block-diagonal matrix of two copies of `w` and `bB` two copies of `b` in a row.
-/
import Idealize.ShloMosaic.PureOps.Ideal
import Idealize.ShloMosaic.Lib.ValueIdx

noncomputable section

namespace Cert.NodeUpdate

open Idealize.ShloMosaic Idealize.ShloMosaic.ValueIdx
open scoped BigOperators

/-- One row per node. -/
abbrev Nodes : Shape := ⟨2, ![100000, 64]⟩
/-- Two consecutive node rows per row. -/
abbrev Pairs : Shape := ⟨2, ![50000, 128]⟩
/-- The weight, and the block-diagonal matrix of two copies of it. -/
abbrev Wt : Shape := ⟨2, ![64, 64]⟩
abbrev WtPair : Shape := ⟨2, ![128, 128]⟩
/-- The bias, and two copies of it as one row. -/
abbrev Bias : Shape := ⟨1, ![64]⟩
abbrev BiasPair : Shape := ⟨2, ![1, 128]⟩
/-- The self-loop weight as jnp holds it, and as the kernel's [1, 1] operand. -/
abbrev Eps : Shape := ⟨1, ![1]⟩
abbrev EpsCell : Shape := ⟨2, ![1, 1]⟩

/-! ## The reference's form -/

/-- rep = agg + eps · x. -/
def rep (agg x : Nodes.Idx → EReal) (eps : Eps.Idx → EReal) : Nodes.Idx → EReal :=
  fun i => agg i + eps (ix1 0) * x i

/-- out at node `n`, feature `d`: row `n` of `r` against column `d` of `w`, plus the bias. -/
def outAt (r : Nodes.Idx → EReal) (w : Wt.Idx → EReal) (b : Bias.Idx → EReal) (n : Fin 100000) (d : Fin 64) : EReal :=
  (∑ k : Fin 64, r (ix2 n k) * w (ix2 k d)) + b (ix1 d)

/-- out = r · w + b. -/
def out (r : Nodes.Idx → EReal) (w : Wt.Idx → EReal) (b : Bias.Idx → EReal) : Nodes.Idx → EReal :=
  fun i => outAt r w b (i 0) (i 1)

/-! ## The packed form -/

/-- Lane `s · 64 + d` of a packed row: feature `d` of the row's node number `s` (0 or 1). -/
def lane (s : Fin 2) (d : Fin 64) : Fin 128 :=
  ⟨s.val * 64 + d.val, by have := d.isLt; have := s.isLt; omega⟩

theorem lane_val (s : Fin 2) (d : Fin 64) : (lane s d).val = s.val * 64 + d.val := rfl

/-- Node `2 r + s`: the node whose features sit in half `s` of packed row `r`. -/
def node (r : Fin 50000) (s : Fin 2) : Fin 100000 :=
  ⟨2 * r.val + s.val, by have := r.isLt; have := s.isLt; omega⟩

theorem node_val (r : Fin 50000) (s : Fin 2) : (node r s).val = 2 * r.val + s.val := rfl

/-- repPacked = aggP + e · xP, on packed rows. -/
def repPacked (a x : Pairs.Idx → EReal) (e : EpsCell.Idx → EReal) : Pairs.Idx → EReal :=
  fun j => a j + e (ix2 0 0) * x j

/-- outPacked at packed row `r`, lane `c`. -/
def outPackedAt (a x : Pairs.Idx → EReal) (wB : WtPair.Idx → EReal) (bB : BiasPair.Idx → EReal) (e : EpsCell.Idx → EReal)
    (r : Fin 50000) (c : Fin 128) : EReal :=
  (∑ k : Fin 128, repPacked a x e (ix2 r k) * wB (ix2 k c)) + bB (ix2 0 c)

/-- outPacked = repPacked · wB + bB. -/
def outPacked (a x : Pairs.Idx → EReal) (wB : WtPair.Idx → EReal) (bB : BiasPair.Idx → EReal) (e : EpsCell.Idx → EReal) :
    Pairs.Idx → EReal :=
  fun j => outPackedAt a x wB bB e (j 0) (j 1)

/-! ## The kernel's operands as its program builds them -/

/-- A weight beside zeros, or zeros beside a weight: [64, 128]. -/
abbrev WtRow : Shape := ⟨2, ![64, 128]⟩
/-- Two biases end to end, before the row axis is added: [128]. -/
abbrev BiasTwice : Shape := ⟨1, ![128]⟩

/-- The block-diagonal weight: `w` beside `z` on top of `z` beside `w` (`z` the zero matrix). -/
def blockWeight (w z : Wt.Idx → EReal) (hc1 : Shape.Concatenates [Wt, Wt] WtRow 1)
    (hc0 : Shape.Concatenates [WtRow, WtRow] WtPair 0) : WtPair.Idx → EReal :=
  concatenate WtPair 0
    [⟨WtRow, concatenate WtRow 1 [⟨Wt, w⟩, ⟨Wt, z⟩] hc1⟩, ⟨WtRow, concatenate WtRow 1 [⟨Wt, z⟩, ⟨Wt, w⟩] hc1⟩] hc0

/-- The bias twice, as one row. -/
def pairBias (b : Bias.Idx → EReal) (hc : Shape.Concatenates [Bias, Bias] BiasTwice 0)
    (hs : BiasTwice.ShapeCasts BiasPair) : BiasPair.Idx → EReal :=
  shapeCast BiasPair (concatenate BiasTwice 0 [⟨Bias, b⟩, ⟨Bias, b⟩] hc) hs

end Cert.NodeUpdate

end
-- ==== Proof.Payload.lean ====
/-
  The kernel body's arithmetic, read at one entry of a block, on the extended reals.

  The body works on one block of 5000 packed rows of 128 lanes. With `a` the block of neighbour sums, `x` the block of
  node features, `e` the [1, 1] cell holding the self-loop weight, `w` the [128, 128] weight block and `b` the
  [1, 128] bias row, it stores

      second output:  a[p, q] + e[0, 0] · x[p, q]
      first output:   (Σ k < 128, (a[p, k] + e[0, 0] · x[p, k]) · w[k, q]) + b[0, q]

  The first is pointwise: a cell extracted and splat over the block, a product, a sum. The second feeds the first
  into a matrix product over the 128 lanes that accumulates into zeros, then adds the bias row repeated down the
  5000 rows. The shape casts in the body are casts of a shape to itself and move nothing.
-/
import proofs.«169123_j62586263437744_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-! ## The self-loop weight's cell -/

/-- The element extracted at position [0, 0] of a [1, 1] array is its entry at the index with both coordinates 0. -/
theorem extract_cell (e : Vec Ideal S1x1 .f32) : extractAt ![0, 0] e inpos_S1x1_p0_0 = e (ix2 0 0) :=
  congrArg e (funext fun a => Fin.ext (by match a with | ⟨0, _⟩ => rfl | ⟨1, _⟩ => rfl))

/-! ## The second output's value: pointwise -/

/-- What the body stores to the second output, at row `p`, lane `q`: `a + e · x` there. -/
theorem pay1_apply (e : Vec Ideal S1x1 .f32) (a x : Vec Ideal S5000x128 .f32) (p : Fin 5000) (q : Fin 128) :
    k0_pay1 (F := Ideal) e a x (ix2 p q) = a (ix2 p q) + e (ix2 0 0) * x (ix2 p q) := by
  unfold k0_pay1
  rw [shapeCast_self a, shapeCast_self x]
  show a (ix2 p q) + extractAt ![0, 0] e inpos_S1x1_p0_0 * x (ix2 p q) = _
  rw [extract_cell]

/-! ## The matrix product over the 128 lanes

  The product's dimension numbers contract the left operand's axis 1 with the right operand's axis 0 and have no
  batch axis: at output entry (p, q) and contraction coordinate k the left operand is read at (p, k) and the right
  at (k, q). The contraction's index set has one axis of extent 128; the sum over it is re-indexed to `Fin 128`. -/

theorem lhs_coord0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_coord1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

theorem rhs_coord0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

theorem rhs_coord1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at row `p`, lane `q`: the sum over the 128 lanes `k` of the left
    operand at (p, k) times the right operand at (k, q). -/
theorem matmul_zero_apply (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_coord0 _ _
    | ⟨1, _⟩ => exact (lhs_coord1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_coord0 _ _).trans hk
    | ⟨1, _⟩ => exact rhs_coord1 _ _)
  rw [el, er]

/-! ## The first output's value -/

/-- What the body stores to the first output, at row `p`, lane `q`: row `p` of `a + e · x` against column `q` of
    the weight block, plus the bias row's entry `q`. -/
theorem pay2_apply (e : Vec Ideal S1x1 .f32) (a x : Vec Ideal S5000x128 .f32) (w : Vec Ideal S128x128 .f32) (b : Vec Ideal S1x128 .f32)
    (p : Fin 5000) (q : Fin 128) :
    k0_pay2 (F := Ideal) e a x w b (ix2 p q)
      = (∑ k : Fin 128, (a (ix2 p k) + e (ix2 0 0) * x (ix2 p k)) * w (ix2 k q)) + b (ix2 0 q) := by
  unfold k0_pay2
  rw [shapeCast_self w, shapeCast_self b]
  refine (addf_apply _ _ (ix2 p q)).trans ?_
  rw [matmul_zero_apply, broadcastTo_1b_ab_apply]
  simp only [pay1_apply]

end Cert.KernelIdeal.Payload

end
-- ==== Proof.Blocks.lean ====
/-
  From blocks to arrays.

  The grid has ten points; at point `t` each of the two packed operands and each of the two outputs is at its
  block of rows 5000 t … 5000 t + 4999 (all 128 lanes), while the weight, the bias row and the self-loop cell are
  whole arrays at every point. So entry (p, q) of what point `t` writes back depends on row 5000 t + p of the
  packed operands only: it is entry (5000 t + p, q) of ONE function of the whole operand arrays,
  `repPacked` for the second output and `outPacked` for the first. Every row r of an output lies in the block
  of point r / 5000, so after the run each output array is that function.
-/
import proofs.«169123_j62586263437744_2_alg».proof.Proof.Gen.KernelIdeal.Frame
import proofs.«169123_j62586263437744_2_alg».proof.Proof.NodeUpdate
import proofs.«169123_j62586263437744_2_alg».proof.Proof.Payload
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.ValueIdx Cert.NodeUpdate
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-- The block index of every window at every point: the row-blocked windows (0, 1, 5, 6) are at block `t` of the
    rows and block 0 of the lanes; the whole-array windows (2, 3, 4) at block 0 of both. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0
  ∧ win0_6.index t (0 : Fin 2) = t.val ∧ win0_6.index t (1 : Fin 2) = 0 :=
  (by decide +kernel : ∀ t : Fin grid0.N, _)

/-- Packed row `5000 t + p`: row `p` of point `t`'s block. -/
def row (t : Fin cfg0.N) (p : Fin 5000) : Fin 50000 :=
  ⟨5000 * t.val + p.val, by have := t.isLt; have hN : cfg0.N = 10 := N_0; have := p.isLt; omega⟩

/-! ## A block read through its window, for ANY contents of the array

  Stated over an arbitrary array `A`, so that nothing here depends on what the array holds. -/

/-- Operand 0's block at point `t`, read through its window: rows 5000 t … of the array. -/
theorem read_rows0 (t : Fin cfg0.N) (A : S50000x128.Idx → EReal) (p : Fin 5000) (k : Fin 128) :
    ((cfg0.win 0).blk t).view.read (Elt Ideal) A (ix2 p k : S5000x128.Idx) = A (ix2 (row t p) k) := by
  obtain ⟨e0, e1, -⟩ := idx_facts t
  rw [View.read_apply]
  show A _ = _
  refine congrArg A (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Operand 1's block at point `t`: rows 5000 t … of the array. -/
theorem read_rows1 (t : Fin cfg0.N) (A : S50000x128.Idx → EReal) (p : Fin 5000) (k : Fin 128) :
    ((cfg0.win 1).blk t).view.read (Elt Ideal) A (ix2 p k : S5000x128.Idx) = A (ix2 (row t p) k) := by
  obtain ⟨-, -, e0, e1, -⟩ := idx_facts t
  rw [View.read_apply]
  show A _ = _
  refine congrArg A (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- Operand 2's block at every point is the whole array. -/
theorem read_whole2 (t : Fin cfg0.N) (A : S128x128.Idx → EReal) (k q : Fin 128) :
    ((cfg0.win 2).blk t).view.read (Elt Ideal) A (ix2 k q : S128x128.Idx) = A (ix2 k q) := by
  obtain ⟨-, -, -, -, e0, e1, -⟩ := idx_facts t
  rw [View.read_apply]
  show A _ = _
  refine congrArg A (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Operand 3's block at every point is the whole row. -/
theorem read_whole3 (t : Fin cfg0.N) (A : S1x128.Idx → EReal) (q : Fin 128) :
    ((cfg0.win 3).blk t).view.read (Elt Ideal) A (ix2 0 q : S1x128.Idx) = A (ix2 0 q) := by
  obtain ⟨-, -, -, -, -, -, e0, e1, -⟩ := idx_facts t
  rw [View.read_apply]
  show A _ = _
  refine congrArg A (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- Operand 4's block at every point is the whole cell. -/
theorem read_whole4 (t : Fin cfg0.N) (A : S1x1.Idx → EReal)  :
    ((cfg0.win 4).blk t).view.read (Elt Ideal) A (ix2 0 0 : S1x1.Idx) = A (ix2 0 0) := by
  obtain ⟨-, -, -, -, -, -, -, -, e0, e1, -⟩ := idx_facts t
  rw [View.read_apply]
  show A _ = _
  refine congrArg A (funext fun a => Fin.ext ?_)
  match a with
  | ⟨0, _⟩ => show win0_4.index t (0 : Fin 2) * 1 + 1 * 0 = 0; rw [e0]
  | ⟨1, _⟩ => show win0_4.index t (1 : Fin 2) * 1 + 1 * 0 = 0; rw [e1]

/-- Entry (p, k) of the first output's block at point `t` is entry (5000 t + p, k) of the array. -/
theorem read_rows5 (t : Fin cfg0.N) (A : S50000x128.Idx → EReal) (p : Fin 5000) (k : Fin 128) :
    ((cfg0.win 5).blk t).view.read (Elt Ideal) A (ix2 p k : S5000x128.Idx) = A (ix2 (row t p) k) := by
  obtain ⟨-, -, -, -, -, -, -, -, -, -, e0, e1, -⟩ := idx_facts t
  rw [View.read_apply]
  show A _ = _
  refine congrArg A (funext fun a => Fin.ext ?_)
  match a with
  | ⟨0, _⟩ => show win0_5.index t (0 : Fin 2) * 5000 + 1 * p.val = 5000 * t.val + p.val; rw [e0]; omega
  | ⟨1, _⟩ => show win0_5.index t (1 : Fin 2) * 128 + 1 * k.val = k.val; rw [e1]; omega

/-- The same for the second output. -/
theorem read_rows6 (t : Fin cfg0.N) (A : S50000x128.Idx → EReal) (p : Fin 5000) (k : Fin 128) :
    ((cfg0.win 6).blk t).view.read (Elt Ideal) A (ix2 p k : S5000x128.Idx) = A (ix2 (row t p) k) := by
  obtain ⟨-, -, -, -, -, -, -, -, -, -, -, -, e0, e1⟩ := idx_facts t
  rw [View.read_apply]
  show A _ = _
  refine congrArg A (funext fun a => Fin.ext ?_)
  match a with
  | ⟨0, _⟩ => show win0_6.index t (0 : Fin 2) * 5000 + 1 * p.val = 5000 * t.val + p.val; rw [e0]; omega
  | ⟨1, _⟩ => show win0_6.index t (1 : Fin 2) * 128 + 1 * k.val = k.val; rw [e1]; omega

/-! ## The input blocks the body is run on -/

/-- The neighbour-sum block at point `t`: rows 5000 t … of the packed neighbour sum. -/
theorem sum_block (c : Dev nD) (t : Fin cfg0.N) (p : Fin 5000) (k : Fin 128) :
    (iblk m c 0 t : Vec Ideal S5000x128 .f32) (ix2 p k) = (V m c main_v13 : S50000x128.Idx → EReal) (ix2 (row t p) k) := by
  unfold iblk
  exact read_rows0 t (V m c main_v13) p k

/-- The feature block at point `t`: rows 5000 t … of the packed features. -/
theorem features_block (c : Dev nD) (t : Fin cfg0.N) (p : Fin 5000) (k : Fin 128) :
    (iblk m c 1 t : Vec Ideal S5000x128 .f32) (ix2 p k) = (V m c main_v14 : S50000x128.Idx → EReal) (ix2 (row t p) k) := by
  unfold iblk
  exact read_rows1 t (V m c main_v14) p k

/-- The weight block at every point is the whole block-diagonal weight. -/
theorem weight_block (c : Dev nD) (t : Fin cfg0.N) (k q : Fin 128) :
    (iblk m c 2 t : Vec Ideal S128x128 .f32) (ix2 k q) = (V m c main_v18 : S128x128.Idx → EReal) (ix2 k q) := by
  unfold iblk
  exact read_whole2 t (V m c main_v18) k q

/-- The bias block at every point is the whole bias row. -/
theorem bias_block (c : Dev nD) (t : Fin cfg0.N) (q : Fin 128) :
    (iblk m c 3 t : Vec Ideal S1x128 .f32) (ix2 0 q) = (V m c main_v20 : S1x128.Idx → EReal) (ix2 0 q) := by
  unfold iblk
  exact read_whole3 t (V m c main_v20) q

/-- The self-loop block at every point is the whole cell. -/
theorem eps_block (c : Dev nD) (t : Fin cfg0.N) :
    (iblk m c 4 t : Vec Ideal S1x1 .f32) (ix2 0 0) = (V m c main_v21 : S1x1.Idx → EReal) (ix2 0 0) := by
  unfold iblk
  exact read_whole4 t (V m c main_v21)

/-! ## What the body's two stored values are, at a point, for ANY blocks that are rows of arrays

  Over arbitrary blocks `e`, `a`, `x`, `w`, `b` and arbitrary arrays of which they are the rows 5000 t … (or the
  whole): the stored value, cut to the block's extent, is block `t` of `repPacked` / `outPacked` of the arrays. -/

theorem rep_point (t : Fin cfg0.N) (e : Vec Ideal S1x1 .f32) (a x : Vec Ideal S5000x128 .f32)
    (A X : S50000x128.Idx → EReal) (E : S1x1.Idx → EReal)
    (ha : ∀ p k, a (ix2 p k) = A (ix2 (row t p) k)) (hx : ∀ p k, x (ix2 p k) = X (ix2 (row t p) k))
    (he : e (ix2 0 0) = E (ix2 0 0)) :
    (cfg0.win 6).cut (grid0.coords t) (k0_pay1 e a x) = ((cfg0.win 6).blk t).view.read (Elt Ideal) (repPacked A X E) := by
  funext y
  obtain ⟨p, q, rfl⟩ : ∃ (p : Fin 5000) (q : Fin 128), y = ix2 p q := ⟨y 0, y 1, eq_ix2 y⟩
  rw [read_rows6 t (repPacked A X E) p q]
  show k0_pay1 e a x (ix2 p q) = A (ix2 (row t p) q) + E (ix2 0 0) * X (ix2 (row t p) q)
  rw [Payload.pay1_apply, ha, hx, he]

theorem out_point (t : Fin cfg0.N) (e : Vec Ideal S1x1 .f32) (a x : Vec Ideal S5000x128 .f32) (w : Vec Ideal S128x128 .f32)
    (b : Vec Ideal S1x128 .f32) (A X : S50000x128.Idx → EReal) (W : S128x128.Idx → EReal) (B : S1x128.Idx → EReal) (E : S1x1.Idx → EReal)
    (ha : ∀ p k, a (ix2 p k) = A (ix2 (row t p) k)) (hx : ∀ p k, x (ix2 p k) = X (ix2 (row t p) k))
    (hw : ∀ k q, w (ix2 k q) = W (ix2 k q)) (hb : ∀ q, b (ix2 0 q) = B (ix2 0 q)) (he : e (ix2 0 0) = E (ix2 0 0)) :
    (cfg0.win 5).cut (grid0.coords t) (k0_pay2 e a x w b) = ((cfg0.win 5).blk t).view.read (Elt Ideal) (outPacked A X W B E) := by
  funext y
  obtain ⟨p, q, rfl⟩ : ∃ (p : Fin 5000) (q : Fin 128), y = ix2 p q := ⟨y 0, y 1, eq_ix2 y⟩
  rw [read_rows5 t (outPacked A X W B E) p q]
  show k0_pay2 e a x w b (ix2 p q)
      = (∑ k : Fin 128, (A (ix2 (row t p) k) + E (ix2 0 0) * X (ix2 (row t p) k)) * W (ix2 k q)) + B (ix2 0 q)
  rw [Payload.pay2_apply, hb, he]
  refine congrArg (· + B (ix2 0 q)) (Finset.sum_congr rfl fun k _ => ?_)
  rw [ha, hx, hw]

/-! ## What a point writes back -/

/-- Point `t` writes back, to the second output, block `t` of `repPacked` of the operand arrays. -/
theorem flushed_rep (c : Dev nD) (t : Fin cfg0.N) :
    (dats m 0 c).flushed 6 t = ((cfg0.win 6).blk t).view.read (Elt Ideal)
      (repPacked (V m c main_v13) (V m c main_v14) (V m c main_v21)) := by
  show (cfg0.win 6).cut (grid0.coords t) ((dats m 0 c).after 6 t) = _
  rw [after0_6]
  unfold out0_6
  rw [View.canon_unit_zero hz]
  simp only [View.ld_unit_zero (S := S5000x128) hz, View.ld_unit_zero (S := S1x1) hz]
  exact rep_point t (iblk m c 4 t) (iblk m c 0 t) (iblk m c 1 t) (V m c main_v13) (V m c main_v14) (V m c main_v21)
    (sum_block m c t) (features_block m c t) (eps_block m c t)

/-- Point `t` writes back, to the first output, block `t` of `outPacked` of the operand arrays. -/
theorem flushed_out (c : Dev nD) (t : Fin cfg0.N) :
    (dats m 0 c).flushed 5 t = ((cfg0.win 5).blk t).view.read (Elt Ideal)
      (outPacked (V m c main_v13) (V m c main_v14) (V m c main_v18) (V m c main_v20) (V m c main_v21)) := by
  show (cfg0.win 5).cut (grid0.coords t) ((dats m 0 c).after 5 t) = _
  rw [after0_5]
  unfold out0_5
  rw [View.canon_unit_zero hz]
  simp only [View.ld_unit_zero (S := S5000x128) hz, View.ld_unit_zero (S := S1x1) hz, View.ld_unit_zero (S := S128x128) hz,
    View.ld_unit_zero (S := S1x128) hz]
  exact out_point t (iblk m c 4 t) (iblk m c 0 t) (iblk m c 1 t) (iblk m c 2 t) (iblk m c 3 t)
    (V m c main_v13) (V m c main_v14) (V m c main_v18) (V m c main_v20) (V m c main_v21)
    (sum_block m c t) (features_block m c t) (weight_block m c t) (bias_block m c t) (eps_block m c t)

/-! ## The cover: every row is in the block of point r / 5000 -/

theorem mem_blk_out (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v22_0).slice (win0_5.rect t)).set ↔ _
  rw [View.set_slice_whole, Rect.mem_set_unit]
  exact Iff.rfl

theorem mem_blk_rep (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v22_1).slice (win0_6.rect t)).set ↔ _
  rw [View.set_slice_whole, Rect.mem_set_unit]
  exact Iff.rfl

/-- The point whose block holds row `r`. -/
def pointOf (i : S50000x128.Idx) : Fin cfg0.N :=
  ⟨(i 0).val / 5000, by have hN : cfg0.N = 10 := N_0; have h : (i 0).val < 50000 := (i 0).isLt; omega⟩

theorem cover_out (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  refine ⟨pointOf i, flush0_5 _, ?_⟩
  rw [mem_blk_out]
  obtain ⟨-, -, -, -, -, -, -, -, -, -, e0, e1, -⟩ := idx_facts (pointOf i)
  intro a
  match a with
  | ⟨0, _⟩ =>
    show win0_5.index (pointOf i) (0 : Fin 2) * 5000 ≤ (i 0).val ∧ (i 0).val < win0_5.index (pointOf i) (0 : Fin 2) * 5000 + 5000
    rw [e0]
    show (i 0).val / 5000 * 5000 ≤ (i 0).val ∧ (i 0).val < (i 0).val / 5000 * 5000 + 5000
    omega
  | ⟨1, _⟩ =>
    show win0_5.index (pointOf i) (1 : Fin 2) * 128 ≤ (i 1).val ∧ (i 1).val < win0_5.index (pointOf i) (1 : Fin 2) * 128 + 128
    rw [e1]
    omega

theorem cover_rep (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  refine ⟨pointOf i, flush0_6 _, ?_⟩
  rw [mem_blk_rep]
  obtain ⟨-, -, -, -, -, -, -, -, -, -, -, -, e0, e1⟩ := idx_facts (pointOf i)
  intro a
  match a with
  | ⟨0, _⟩ =>
    show win0_6.index (pointOf i) (0 : Fin 2) * 5000 ≤ (i 0).val ∧ (i 0).val < win0_6.index (pointOf i) (0 : Fin 2) * 5000 + 5000
    rw [e0]
    show (i 0).val / 5000 * 5000 ≤ (i 0).val ∧ (i 0).val < (i 0).val / 5000 * 5000 + 5000
    omega
  | ⟨1, _⟩ =>
    show win0_6.index (pointOf i) (1 : Fin 2) * 128 ≤ (i 1).val ∧ (i 1).val < win0_6.index (pointOf i) (1 : Fin 2) * 128 + 128
    rw [e1]
    omega

/-! ## The output arrays after the run -/

/-- The first output array ends holding `outPacked` of the operand arrays. -/
theorem final_out (c : Dev nD) :
    (dats m 0 c).arrAt 5 cfg0.N = outPacked (V m c main_v13) (V m c main_v14) (V m c main_v18) (V m c main_v20) (V m c main_v21) :=
  (dats m 0 c).arrAt_eq_of_cover 5 _ (fun t _ => flushed_out m c t) cover_out

/-- The second output array ends holding `repPacked` of the operand arrays. -/
theorem final_rep (c : Dev nD) :
    (dats m 0 c).arrAt 6 cfg0.N = repPacked (V m c main_v13) (V m c main_v14) (V m c main_v21) :=
  (dats m 0 c).arrAt_eq_of_cover 6 _ (fun t _ => flushed_rep m c t) cover_rep

end Cert.KernelIdeal.Blocks

end
-- ==== Proof.Operands.lean ====
/-
  What the kernel's region finds in its five operand arrays: the values the program's host lines before the
  launch leave there, each as a function of the argument arrays.

    operand 0: the neighbour sum (the scatter-add, keyed by the edges' sources, of the edge weights times the
               gathered rows of the edges' targets), two node rows per packed row;
    operand 1: the node features, two node rows per packed row;
    operand 2: the block-diagonal weight, the weight beside zeros on top of zeros beside the weight;
    operand 3: the bias twice, as one row;
    operand 4: the self-loop weight as a [1, 1] cell.

  The neighbour sum is one function of the arguments (`neighbourSum`) and is never opened: the reference computes
  it by the same operations, so the two sides agree on it as a whole.
-/
import proofs.«169123_j62586263437744_2_alg».proof.Proof.Gen.KernelIdeal.Frame
import proofs.«169123_j62586263437744_2_alg».proof.Proof.NodeUpdate
import Idealize.ShloMosaic.Lib.StableHlo.Run
import Idealize.ShloMosaic.Lib.Pipeline.Value
import Idealize.ShloMosaic.PureOps.Ideal
import Idealize.ShloMosaic.PureOps.Ideal.Laws

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The neighbour sum of every node: into zeros, the scatter-add keyed by `src` of `val[e] · x[dst[e], ·]`, a
    negative target index counted from the end as jnp does. -/
def neighbourSum (x : (⟨S100000x64, .f32⟩ : BufTy).Contents (Elt Ideal)) (src dst : (⟨S1600000, .i32⟩ : BufTy).Contents (Elt Ideal))
    (val : (⟨S1600000, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 src)
    (mulf (F := Ideal) (broadcastInDim S1600000x64 ![0, 1] bcast_S1600000x1_S1600000x64_0_1 (broadcastInDim S1600000x1 ![0] bcast_S1600000_S1600000x1_0 val))
      (Host.gather gather_S100000x64_S1600000x1_S1600000x64_1_0_n_n_0_1_164 x
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 100000#32))) dst))))

/-- The [64, 64] zero matrix the block-diagonal weight is padded with. -/
def zeros : (⟨S64x64, .f32⟩ : BufTy).Contents (Elt Ideal) :=
  broadcastInDim S64x64 ![] bcast_S_S64x64 (constant (F := Ideal) S_ .f32 0x00000000#32)

/-- Every entry of it is zero. -/
theorem zeros_apply (i : S64x64.Idx) : zeros i = (0 : EReal) := by
  show Ideal.ofBits .f32 0x00000000#32 = 0
  exact Ideal.ofBits_zero_f32

set_option maxHeartbeats 4000000 in
/-- Operand 0: the neighbour sum, packed. -/
theorem found_sum (c : Dev nD) :
    (V m c main_v13 : S50000x128.Idx → EReal)
      = shapeCast S50000x128 (neighbourSum (m ((c.tc : Thread nD τ).loc main_arg0)) (m ((c.tc : Thread nD τ).loc main_arg1))
          (m ((c.tc : Thread nD τ).loc main_arg2)) (m ((c.tc : Thread nD τ).loc main_arg3))) shapeCasts_S100000x64_S50000x128 := by
  show StableHlo.after hostOps0 (fun b => m (c, b)) (Proc.devRef .tc main_v13) = _
  after_results_simp
  rfl

/-- Operand 1: the node features, packed. -/
theorem found_features (c : Dev nD) :
    (V m c main_v14 : S50000x128.Idx → EReal)
      = shapeCast S50000x128 (m ((c.tc : Thread nD τ).loc main_arg0)) shapeCasts_S100000x64_S50000x128 := by
  show StableHlo.after hostOps0 (fun b => m (c, b)) (Proc.devRef .tc main_v14) = _
  after_results
  rfl

/-- Operand 2: the block-diagonal weight. -/
theorem found_weight (c : Dev nD) :
    (V m c main_v18 : S128x128.Idx → EReal)
      = Cert.NodeUpdate.blockWeight (m ((c.tc : Thread nD τ).loc main_arg4)) zeros
          concatenates_S64x64_S64x64_S64x128_d1 concatenates_S64x128_S64x128_S128x128_d0 := by
  show StableHlo.after hostOps0 (fun b => m (c, b)) (Proc.devRef .tc main_v18) = _
  after_results
  rfl

/-- Operand 3: the bias twice, as one row. -/
theorem found_bias (c : Dev nD) :
    (V m c main_v20 : S1x128.Idx → EReal)
      = Cert.NodeUpdate.pairBias (m ((c.tc : Thread nD τ).loc main_arg6)) concatenates_S64_S64_S128_d0 shapeCasts_S128_S1x128 := by
  show StableHlo.after hostOps0 (fun b => m (c, b)) (Proc.devRef .tc main_v20) = _
  after_results
  rfl

/-- Operand 4: the self-loop weight as a cell. -/
theorem found_eps (c : Dev nD) :
    (V m c main_v21 : S1x1.Idx → EReal) = shapeCast S1x1 (m ((c.tc : Thread nD τ).loc main_arg5)) shapeCasts_S1_S1x1 := by
  show StableHlo.after hostOps0 (fun b => m (c, b)) (Proc.devRef .tc main_v21) = _
  after_results
  rfl

end Cert.KernelIdeal.Operands

end
-- ==== Proof.LibBlockDiagonal.lean ====
/-
  A row of length n + n contracted against one column of a block-diagonal matrix built from two copies of an
  n × n block. Such a column is zero outside one of the two halves of its positions, and a product with zero is
  zero at every value of the other factor, so the contraction over all n + n positions is the contraction of
  one half of the row against the block's own column. Nothing here needs the summands to be finite: only that
  the sum is commutative and associative and that x · 0 = 0.
-/
import Mathlib.Algebra.BigOperators.Fin
import Mathlib.Tactic

namespace Cert.BlockDiagonal

open scoped BigOperators

/-- Position `k` of half `s` (0: the first n positions, 1: the last n) among n + n positions. -/
def half {n : ℕ} (s : Fin 2) (k : Fin n) : Fin (n + n) :=
  ⟨s.val * n + k.val, by
    have hk := k.isLt
    have hs : s.val = 0 ∨ s.val = 1 := by have := s.isLt; omega
    rcases hs with h | h <;> rw [h] <;> omega⟩

/-- Its position number: s · n + k. -/
theorem half_val {n : ℕ} (s : Fin 2) (k : Fin n) : (half s k).val = s.val * n + k.val := rfl

theorem half_zero {n : ℕ} (k : Fin n) : half 0 k = Fin.castAdd n k :=
  Fin.ext (by show 0 * n + k.val = k.val; omega)
theorem half_one {n : ℕ} (k : Fin n) : half 1 k = Fin.natAdd n k :=
  Fin.ext (by show 1 * n + k.val = n + k.val; omega)

/-- The two halves are all there is. -/
theorem fin_two (s : Fin 2) : s = 0 ∨ s = 1 := by
  obtain ⟨s, hs⟩ := s
  have h : s = 0 ∨ s = 1 := by omega
  rcases h with rfl | rfl
  · exact Or.inl rfl
  · exact Or.inr rfl

/-- A sum over n + n positions of a family that vanishes on the half other than `s` is the sum over half `s`. -/
theorem sum_eq_sum_half {M : Type*} [AddCommMonoid M] {n : ℕ} (f : Fin (n + n) → M) (s : Fin 2)
    (hz : ∀ t : Fin 2, t ≠ s → ∀ k : Fin n, f (half t k) = 0) :
    ∑ k, f k = ∑ k : Fin n, f (half s k) := by
  rw [Fin.sum_univ_add]
  rcases fin_two s with rfl | rfl
  · have h1 : ∑ i : Fin n, f (Fin.natAdd n i) = 0 :=
      Finset.sum_eq_zero fun i _ => by rw [← half_one]; exact hz 1 (by decide) i
    rw [h1, add_zero]
    exact Finset.sum_congr rfl fun i _ => by rw [← half_zero]
  · have h0 : ∑ i : Fin n, f (Fin.castAdd n i) = 0 :=
      Finset.sum_eq_zero fun i _ => by rw [← half_zero]; exact hz 0 (by decide) i
    rw [h0, zero_add]
    exact Finset.sum_congr rfl fun i _ => by rw [← half_one]

/-- THE LAW: a row `r` against a column `wb` that is the block's column `w` on half `s` and zero on the other
    half is half `s` of the row against `w`, wherever a product with zero is zero (`hmz`). -/
theorem row_blockDiagonal {M : Type*} [AddCommMonoid M] [Mul M] (hmz : ∀ a : M, a * 0 = 0) {n : ℕ}
    (r wb : Fin (n + n) → M) (w : Fin n → M) (s : Fin 2) (hon : ∀ k : Fin n, wb (half s k) = w k)
    (hoff : ∀ t : Fin 2, t ≠ s → ∀ k : Fin n, wb (half t k) = 0) :
    ∑ k, r k * wb k = ∑ k : Fin n, r (half s k) * w k := by
  rw [sum_eq_sum_half (fun k => r k * wb k) s (fun t ht k => by
    show r (half t k) * wb (half t k) = 0
    rw [hoff t ht k, hmz])]
  exact Finset.sum_congr rfl fun k _ => by rw [hon k]

end Cert.BlockDiagonal
-- ==== Proof.PackedRows.lean ====
/-
  Packed rows against node rows.

  A row-major reshape between [100000, 64] and [50000, 128] moves nothing: element (n, d) of the first sits at
  row-major position n · 64 + d, element (r, c) of the second at r · 128 + c, and with n = 2 r + s and
  c = s · 64 + d the two positions are the same number. So packed row r, lane s · 64 + d, is node 2 r + s,
  feature d, in both directions; every node is 2 r + s and every lane is s · 64 + d for exactly one (r, s) and
  (s, d).

  On packed rows the contraction of a row against the block-diagonal weight is the contraction of the node's own
  64 features against the weight: column s · 64 + d of the block-diagonal matrix is column d of the weight on
  the positions of half s and zero on the other half, and a product v · 0 is 0 on the extended reals at every v,
  the infinite ones too. No finiteness is used.
-/
import proofs.«169123_j62586263437744_2_alg».proof.Proof.NodeUpdate
import proofs.«169123_j62586263437744_2_alg».proof.Proof.LibBlockDiagonal
import Idealize.ShloMosaic.Lib.Pipeline.Value
import Idealize.ShloMosaic.Lib.ValueIdx

noncomputable section

namespace Cert.NodeUpdate

open Idealize.ShloMosaic Idealize.ShloMosaic.ValueIdx
open scoped BigOperators

/-! ## The reshape moves nothing -/

/-- Packing: packed row r, lane s · 64 + d, holds node 2 r + s, feature d. -/
theorem pack_apply {α : Type} (X : Nodes.Idx → α) (h : Nodes.ShapeCasts Pairs) (r : Fin 50000) (s : Fin 2) (d : Fin 64) :
    shapeCast Pairs X h (ix2 r (lane s d)) = X (ix2 (node r s) d) := by
  refine shapeCast_apply X h (ix2 r (lane s d)) (ix2 (node r s) d) ?_
  rw [Shape.rowMajor_val_two, Shape.rowMajor_val_two]
  show (2 * r.val + s.val) * 64 + d.val = r.val * 128 + (s.val * 64 + d.val)
  omega

/-- Unpacking: node 2 r + s, feature d, is read from packed row r, lane s · 64 + d. -/
theorem unpack_apply {α : Type} (Y : Pairs.Idx → α) (h' : Pairs.ShapeCasts Nodes) (r : Fin 50000) (s : Fin 2) (d : Fin 64) :
    shapeCast Nodes Y h' (ix2 (node r s) d) = Y (ix2 r (lane s d)) := by
  refine shapeCast_apply Y h' (ix2 (node r s) d) (ix2 r (lane s d)) ?_
  rw [Shape.rowMajor_val_two, Shape.rowMajor_val_two]
  show r.val * 128 + (s.val * 64 + d.val) = (2 * r.val + s.val) * 64 + d.val
  omega

/-- Every node is node 2 r + s of some packed row r and half s: r = n / 2, s = n mod 2. -/
theorem node_surj (n : Fin 100000) : ∃ (r : Fin 50000) (s : Fin 2), n = node r s := by
  have hn := n.isLt
  refine ⟨⟨n.val / 2, by omega⟩, ⟨n.val % 2, by omega⟩, Fin.ext ?_⟩
  show n.val = 2 * (n.val / 2) + n.val % 2
  omega

/-- Every lane is lane s · 64 + d of some half s and feature d: s = c / 64, d = c mod 64. -/
theorem lane_surj (c : Fin 128) : ∃ (s : Fin 2) (d : Fin 64), c = lane s d := by
  have hc := c.isLt
  refine ⟨⟨c.val / 64, by omega⟩, ⟨c.val % 64, by omega⟩, Fin.ext ?_⟩
  show c.val = c.val / 64 * 64 + c.val % 64
  omega

/-! ## rep on packed rows -/

/-- The self-loop weight's one cell is the weight. -/
theorem epsCell_apply {α : Type} (eps : Eps.Idx → α) (h1 : Eps.ShapeCasts EpsCell) :
    shapeCast EpsCell eps h1 (ix2 0 0) = eps (ix1 0) := by
  refine shapeCast_apply eps h1 (ix2 0 0) (ix1 0) ?_
  rw [Shape.rowMajor_val_two, Shape.rowMajor_val_one]
  rfl

/-- repPacked of the packed arrays at packed row r, lane s · 64 + k, is rep at node 2 r + s, feature k. -/
theorem repPacked_pack (agg x : Nodes.Idx → EReal) (eps : Eps.Idx → EReal) (h : Nodes.ShapeCasts Pairs)
    (h1 : Eps.ShapeCasts EpsCell) (r : Fin 50000) (s : Fin 2) (k : Fin 64) :
    repPacked (shapeCast Pairs agg h) (shapeCast Pairs x h) (shapeCast EpsCell eps h1) (ix2 r (lane s k))
      = rep agg x eps (ix2 (node r s) k) := by
  show shapeCast Pairs agg h (ix2 r (lane s k)) + shapeCast EpsCell eps h1 (ix2 0 0) * shapeCast Pairs x h (ix2 r (lane s k))
      = agg (ix2 (node r s) k) + eps (ix1 0) * x (ix2 (node r s) k)
  rw [pack_apply, pack_apply, epsCell_apply]

/-- Unpacking repPacked of the packed arrays gives rep. -/
theorem unpack_rep (agg x : Nodes.Idx → EReal) (eps : Eps.Idx → EReal) (h : Nodes.ShapeCasts Pairs) (h' : Pairs.ShapeCasts Nodes)
    (h1 : Eps.ShapeCasts EpsCell) :
    shapeCast Nodes (repPacked (shapeCast Pairs agg h) (shapeCast Pairs x h) (shapeCast EpsCell eps h1)) h' = rep agg x eps := by
  funext i
  obtain ⟨n, d, rfl⟩ : ∃ (n : Fin 100000) (d : Fin 64), i = ix2 n d := ⟨i 0, i 1, eq_ix2 i⟩
  obtain ⟨r, s, rfl⟩ := node_surj n
  rw [unpack_apply, repPacked_pack]

/-! ## out on packed rows -/

/-- Position k of half t among 64 + 64 positions is lane t · 64 + k. -/
theorem half_eq_lane (t : Fin 2) (k : Fin 64) : (Cert.BlockDiagonal.half t k : Fin (64 + 64)) = lane t k :=
  Fin.ext rfl

/-- A packed row against column s · 64 + d of the block-diagonal weight is half s of the row against column d of
    the weight: the other half meets zeros, and v · 0 = 0 at every extended real v. -/
theorem sum_blockWeight (R : Fin 128 → EReal) (w : Wt.Idx → EReal) (wB : WtPair.Idx → EReal)
    (hw_on : ∀ (s : Fin 2) (k d : Fin 64), wB (ix2 (lane s k) (lane s d)) = w (ix2 k d))
    (hw_off : ∀ (s t : Fin 2), t ≠ s → ∀ k d : Fin 64, wB (ix2 (lane t k) (lane s d)) = 0)
    (s : Fin 2) (d : Fin 64) :
    ∑ k : Fin 128, R k * wB (ix2 k (lane s d)) = ∑ k : Fin 64, R (lane s k) * w (ix2 k d) := by
  have hlaw := Cert.BlockDiagonal.row_blockDiagonal (M := EReal) (fun a => mul_zero a) (n := 64)
    (fun k : Fin (64 + 64) => R k) (fun k : Fin (64 + 64) => wB (ix2 (n0 := 128) k (lane s d))) (fun k : Fin 64 => w (ix2 k d)) s
    (fun k => by rw [half_eq_lane]; exact hw_on s k d)
    (fun t ht k => by rw [half_eq_lane]; exact hw_off s t ht k d)
  refine hlaw.trans (Finset.sum_congr rfl fun k _ => ?_)
  rw [half_eq_lane]

/-- Unpacking outPacked of the packed arrays, against a block-diagonal weight and a doubled bias, gives out of rep. -/
theorem unpack_out (agg x : Nodes.Idx → EReal) (eps : Eps.Idx → EReal) (w : Wt.Idx → EReal) (b : Bias.Idx → EReal)
    (wB : WtPair.Idx → EReal) (bB : BiasPair.Idx → EReal)
    (h : Nodes.ShapeCasts Pairs) (h' : Pairs.ShapeCasts Nodes) (h1 : Eps.ShapeCasts EpsCell)
    (hw_on : ∀ (s : Fin 2) (k d : Fin 64), wB (ix2 (lane s k) (lane s d)) = w (ix2 k d))
    (hw_off : ∀ (s t : Fin 2), t ≠ s → ∀ k d : Fin 64, wB (ix2 (lane t k) (lane s d)) = 0)
    (hb : ∀ (s : Fin 2) (d : Fin 64), bB (ix2 0 (lane s d)) = b (ix1 d)) :
    shapeCast Nodes (outPacked (shapeCast Pairs agg h) (shapeCast Pairs x h) wB bB (shapeCast EpsCell eps h1)) h' = out (rep agg x eps) w b := by
  funext i
  obtain ⟨n, d, rfl⟩ : ∃ (n : Fin 100000) (d : Fin 64), i = ix2 n d := ⟨i 0, i 1, eq_ix2 i⟩
  obtain ⟨r, s, rfl⟩ := node_surj n
  rw [unpack_apply]
  show (∑ k : Fin 128, repPacked (shapeCast Pairs agg h) (shapeCast Pairs x h) (shapeCast EpsCell eps h1) (ix2 r k) * wB (ix2 k (lane s d)))
        + bB (ix2 0 (lane s d))
      = (∑ k : Fin 64, rep agg x eps (ix2 (node r s) k) * w (ix2 k d)) + b (ix1 d)
  rw [hb s d, sum_blockWeight (fun k => repPacked (shapeCast Pairs agg h) (shapeCast Pairs x h) (shapeCast EpsCell eps h1) (ix2 r k))
    w wB hw_on hw_off s d]
  refine congrArg (· + b (ix1 d)) (Finset.sum_congr rfl fun k _ => ?_)
  show repPacked (shapeCast Pairs agg h) (shapeCast Pairs x h) (shapeCast EpsCell eps h1) (ix2 r (lane s k)) * w (ix2 k d)
      = rep agg x eps (ix2 (node r s) k) * w (ix2 k d)
  rw [repPacked_pack]

end Cert.NodeUpdate

end
-- ==== Proof.OperandLayout.lean ====
/-
  The kernel's two built operands, read entry by entry.

  The [128, 128] weight is  concatenate( concatenate(w, z; axis 1), concatenate(z, w; axis 1); axis 0 ):
  its entry (t · 64 + k, s · 64 + d) is w[k, d] when t = s and z[k, d] when t ≠ s, which is 0 for z the zero matrix.
  The [1, 128] bias row is the reshape of concatenate(b, b; axis 0): its entry (0, s · 64 + d) is b[d].

  Each concatenation is read through four facts about a position c < 128 along the joined axis: c = d < 64 falls in the
  first piece at d, and c = 64 + d in the second piece at d; the other coordinate is carried over unchanged.
-/
import proofs.«169123_j62586263437744_2_alg».proof.Proof.NodeUpdate
import Idealize.ShloMosaic.Lib.Pipeline.Value
import Idealize.ShloMosaic.Lib.ValueIdx

noncomputable section

namespace Cert.NodeUpdate

open Idealize.ShloMosaic Idealize.ShloMosaic.ValueIdx

/-! ## Lanes of the two halves -/

/-- Lane `d` of the first half is position `d`. -/
theorem lane_first_val (h : 0 < 2) (d : Fin 64) : (lane ⟨0, h⟩ d).val = d.val := by
  show 0 * 64 + d.val = d.val; omega

/-- Lane `d` of the second half is position `64 + d`. -/
theorem lane_second_val (h : 1 < 2) (d : Fin 64) : (lane ⟨1, h⟩ d).val = 64 + d.val := by
  show 1 * 64 + d.val = 64 + d.val; omega

/-! ## Two [64, 64] matrices side by side -/

/-- `p` beside `q`, at a column of the first half, is `p`. -/
theorem beside_left (p q : Wt.Idx → EReal) (hc1 : Shape.Concatenates [Wt, Wt] WtRow 1) (k d : Fin 64) (c : Fin 128)
    (h : c.val = d.val) : concatenate WtRow 1 [⟨Wt, p⟩, ⟨Wt, q⟩] hc1 (ix2 k c) = p (ix2 k d) :=
  concatenate_pair_apply_left _ p q hc1 (ix2 k c) rfl (ix2 k d)
    (fun b => match b with
      | ⟨0, _⟩ => rfl
      | ⟨1, _⟩ => by show d.val = c.val; omega)

/-- `p` beside `q`, at a column of the second half, is `q`. -/
theorem beside_right (p q : Wt.Idx → EReal) (hc1 : Shape.Concatenates [Wt, Wt] WtRow 1) (k d : Fin 64) (c : Fin 128)
    (h : c.val = 64 + d.val) : concatenate WtRow 1 [⟨Wt, p⟩, ⟨Wt, q⟩] hc1 (ix2 k c) = q (ix2 k d) :=
  concatenate_pair_apply_right _ p q hc1 (ix2 k c) rfl rfl (ix2 k d)
    (fun b => match b with
      | ⟨0, _⟩ => fun _ => rfl
      | ⟨1, _⟩ => fun hb => absurd rfl hb)
    (by show d.val + 64 = c.val; omega)

/-! ## Two [64, 128] matrices one above the other -/

/-- `P` above `Q`, at a row of the first half, is `P`. -/
theorem above_top (P Q : WtRow.Idx → EReal) (hc0 : Shape.Concatenates [WtRow, WtRow] WtPair 0) (k : Fin 64) (r c : Fin 128)
    (h : r.val = k.val) : concatenate WtPair 0 [⟨WtRow, P⟩, ⟨WtRow, Q⟩] hc0 (ix2 r c) = P (ix2 k c) :=
  concatenate_pair_apply_left _ P Q hc0 (ix2 r c) rfl (ix2 k c)
    (fun b => match b with
      | ⟨0, _⟩ => by show k.val = r.val; omega
      | ⟨1, _⟩ => rfl)

/-- `P` above `Q`, at a row of the second half, is `Q`. -/
theorem above_bottom (P Q : WtRow.Idx → EReal) (hc0 : Shape.Concatenates [WtRow, WtRow] WtPair 0) (k : Fin 64) (r c : Fin 128)
    (h : r.val = 64 + k.val) : concatenate WtPair 0 [⟨WtRow, P⟩, ⟨WtRow, Q⟩] hc0 (ix2 r c) = Q (ix2 k c) :=
  concatenate_pair_apply_right _ P Q hc0 (ix2 r c) rfl rfl (ix2 k c)
    (fun b => match b with
      | ⟨0, _⟩ => fun hb => absurd rfl hb
      | ⟨1, _⟩ => fun _ => rfl)
    (by show k.val + 64 = r.val; omega)

/-! ## The block-diagonal weight -/

/-- On a diagonal block the built weight is `w`. -/
theorem blockWeight_on (w z : Wt.Idx → EReal) (hc1 : Shape.Concatenates [Wt, Wt] WtRow 1) (hc0 : Shape.Concatenates [WtRow, WtRow] WtPair 0)
    (s : Fin 2) (k d : Fin 64) : blockWeight w z hc1 hc0 (ix2 (lane s k) (lane s d)) = w (ix2 k d) := by
  unfold blockWeight
  obtain ⟨s, hs⟩ := s
  rcases (by omega : s = 0 ∨ s = 1) with rfl | rfl
  · exact (above_top _ _ hc0 k _ _ (lane_first_val hs k)).trans (beside_left w z hc1 k d _ (lane_first_val hs d))
  · exact (above_bottom _ _ hc0 k _ _ (lane_second_val hs k)).trans (beside_right z w hc1 k d _ (lane_second_val hs d))

/-- Off the diagonal blocks the built weight is the zero matrix's entry. -/
theorem blockWeight_off (w z : Wt.Idx → EReal) (hz : ∀ i, z i = 0) (hc1 : Shape.Concatenates [Wt, Wt] WtRow 1)
    (hc0 : Shape.Concatenates [WtRow, WtRow] WtPair 0) (s t : Fin 2) (hts : t ≠ s) (k d : Fin 64) :
    blockWeight w z hc1 hc0 (ix2 (lane t k) (lane s d)) = 0 := by
  unfold blockWeight
  obtain ⟨s, hs⟩ := s
  obtain ⟨t, ht⟩ := t
  have hne : t ≠ s := fun e => hts (Fin.ext e)
  rcases (by omega : s = 0 ∨ s = 1) with rfl | rfl
  · obtain rfl : t = 1 := by omega
    exact ((above_bottom _ _ hc0 k _ _ (lane_second_val ht k)).trans (beside_left z w hc1 k d _ (lane_first_val hs d))).trans (hz _)
  · obtain rfl : t = 0 := by omega
    exact ((above_top _ _ hc0 k _ _ (lane_first_val ht k)).trans (beside_right w z hc1 k d _ (lane_second_val hs d))).trans (hz _)

/-! ## The bias row -/

/-- The bias twice, as one row, at lane `d` of either half is `b[d]`. -/
theorem pairBias_apply (b : Bias.Idx → EReal) (hc : Shape.Concatenates [Bias, Bias] BiasTwice 0) (hs : BiasTwice.ShapeCasts BiasPair)
    (s : Fin 2) (d : Fin 64) : pairBias b hc hs (ix2 0 (lane s d)) = b (ix1 d) := by
  unfold pairBias
  -- the reshape [128] → [1, 128] keeps the position along the row
  refine (shapeCast_apply _ hs (ix2 0 (lane s d)) (ix1 (lane s d)) ?_).trans ?_
  · rw [Shape.rowMajor_val_one, Shape.rowMajor_val_two]
    show (lane s d).val = 0 * 128 + (lane s d).val
    omega
  · obtain ⟨s, hs2⟩ := s
    rcases (by omega : s = 0 ∨ s = 1) with rfl | rfl
    · exact concatenate_pair_apply_left _ b b hc (ix1 (lane ⟨0, hs2⟩ d)) rfl (ix1 d)
        (fun a => match a with
          | ⟨0, _⟩ => by show d.val = 0 * 64 + d.val; omega)
    · exact concatenate_pair_apply_right _ b b hc (ix1 (lane ⟨1, hs2⟩ d)) rfl rfl (ix1 d)
        (fun a => match a with
          | ⟨0, _⟩ => fun ha => absurd rfl ha)
        (by show d.val + 64 = 1 * 64 + d.val; omega)

end Cert.NodeUpdate

end
-- ==== Proof.KernelValue.lean ====
/-
  The kernel program's two results as functions of its arguments.

  After the region the program reshapes each packed output [50000, 128] back to [100000, 64]. The region leaves
  the first output at `outPacked` and the second at `repPacked` of the operand arrays (the blocks, put together);
  the operand arrays are the packed neighbour sum, the packed features, the block-diagonal weight, the doubled
  bias and the self-loop cell (what the host lines before the launch leave). Unpacking a packed row-pair gives
  back the two node rows, and against the block-diagonal weight each half of a packed row meets only its own copy
  of the weight. So the results are `out (rep agg x eps) w b` and `rep agg x eps` with `agg` the neighbour sum.
-/
import proofs.«169123_j62586263437744_2_alg».proof.Proof.Blocks
import proofs.«169123_j62586263437744_2_alg».proof.Proof.Operands
import proofs.«169123_j62586263437744_2_alg».proof.Proof.PackedRows
import proofs.«169123_j62586263437744_2_alg».proof.Proof.OperandLayout
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx Cert.NodeUpdate
open Idealize.ShloMosaic.Pipeline (Dat)

variable (m : (ℓ : Loc nD τ sig) → Buf (Elt Ideal) ℓ) (ρ : Dev nD → PrngReg)

/-! ## The two reshapes after the region -/

/-- What the region leaves in the first output's array, seen by the lines after it. -/
theorem left_out (c : Dev nD) :
    Pipeline.withArrays (cfgs 0).spec c (V0 m c) (fun w => (dats m 0 c).arrAt w (cfgs 0).N) (Proc.devRef .tc main_v22_0)
      = (dats m 0 c).arrAt 5 cfg0.N :=
  Pipeline.withArrays_arr spec0 launch0.win.arr_inj c _ _ 5

/-- What the region leaves in the second output's array, seen by the lines after it. -/
theorem left_rep (c : Dev nD) :
    Pipeline.withArrays (cfgs 0).spec c (V0 m c) (fun w => (dats m 0 c).arrAt w (cfgs 0).N) (Proc.devRef .tc main_v22_1)
      = (dats m 0 c).arrAt 6 cfg0.N :=
  Pipeline.withArrays_arr spec0 launch0.win.arr_inj c _ _ 6

/-- The first result: the first output's array, unpacked. -/
theorem tail_out (c : Dev nD) :
    Pipeline.afterTail₀ cfgs (dats m) 0 (V0 m) [hostOps1] c main_v23
      = shapeCast S100000x64 ((dats m 0 c).arrAt 5 cfg0.N) shapeCasts_S50000x128_S100000x64 := by
  unfold Pipeline.afterTail₀
  show StableHlo.after hostOps1 _ (Proc.devRef .tc main_v23) = _
  after_results
  rw [left_out]
  rfl

/-- The second result: the second output's array, unpacked. -/
theorem tail_rep (c : Dev nD) :
    Pipeline.afterTail₀ cfgs (dats m) 0 (V0 m) [hostOps1] c main_v24
      = shapeCast S100000x64 ((dats m 0 c).arrAt 6 cfg0.N) shapeCasts_S50000x128_S100000x64 := by
  unfold Pipeline.afterTail₀
  show StableHlo.after hostOps1 _ (Proc.devRef .tc main_v24) = _
  after_results
  rw [left_rep]
  rfl

/-! ## The results as the layer's functions -/

/-- The neighbour sum of the launch contents. -/
abbrev agg (c : Dev nD) : S100000x64.Idx → EReal :=
  Operands.neighbourSum (m ((c.tc : Thread nD τ).loc main_arg0)) (m ((c.tc : Thread nD τ).loc main_arg1))
    (m ((c.tc : Thread nD τ).loc main_arg2)) (m ((c.tc : Thread nD τ).loc main_arg3))

/-- The first output's array, unpacked, is `out` of `rep`. -/
theorem out_value (c : Dev nD) :
    shapeCast S100000x64 ((dats m 0 c).arrAt 5 cfg0.N) shapeCasts_S50000x128_S100000x64
      = out (rep (agg m c) (m ((c.tc : Thread nD τ).loc main_arg0)) (m ((c.tc : Thread nD τ).loc main_arg5)))
          (m ((c.tc : Thread nD τ).loc main_arg4)) (m ((c.tc : Thread nD τ).loc main_arg6)) := by
  rw [Blocks.final_out, Operands.found_sum, Operands.found_features, Operands.found_weight, Operands.found_bias, Operands.found_eps]
  exact unpack_out _ _ _ _ _ _ _ _ _ _
    (fun s k d => blockWeight_on _ _ _ _ s k d)
    (fun s t hts k d => blockWeight_off _ _ Operands.zeros_apply _ _ s t hts k d)
    (fun s d => pairBias_apply _ _ _ s d)

/-- The second output's array, unpacked, is `rep`. -/
theorem rep_value (c : Dev nD) :
    shapeCast S100000x64 ((dats m 0 c).arrAt 6 cfg0.N) shapeCasts_S50000x128_S100000x64
      = rep (agg m c) (m ((c.tc : Thread nD τ).loc main_arg0)) (m ((c.tc : Thread nD τ).loc main_arg5)) := by
  rw [Blocks.final_rep, Operands.found_sum, Operands.found_features, Operands.found_eps]
  exact unpack_rep _ _ _ _ _ _

/-! ## The run, read -/

/-- Every weakly fair execution of the kernel's program terminates with its first result at `out` of `rep`, its
    second at `rep`, and its arguments unchanged. -/
theorem run : θ_run defs (onTc (τ := τ) (main (F := Ideal))) ⟨m, fun _ => 0, ρ⟩ fun r => ∀ c : Dev nD,
      r.2.mem ((c.tc : Thread nD τ).loc main_v23)
        = out (rep (agg m c) (m ((c.tc : Thread nD τ).loc main_arg0)) (m ((c.tc : Thread nD τ).loc main_arg5)))
            (m ((c.tc : Thread nD τ).loc main_arg4)) (m ((c.tc : Thread nD τ).loc main_arg6))
      ∧ r.2.mem ((c.tc : Thread nD τ).loc main_v24)
        = rep (agg m c) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_v23 (Pipeline.mem_restRefs_of main_v23 (by decide) (by decide))).trans (tail_out m c)).trans (out_value m c),
      (((h c).2 main_v24 (Pipeline.mem_restRefs_of main_v24 (by decide) (by decide))).trans (tail_rep m c)).trans (rep_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KernelValue

end
-- ==== Proof.ReferenceValue.lean ====
/-
  The reference program's two results, index by index, in the node update's own words.

  The reference's second result is the stage `val_main_v16`: the neighbour sum (the stage `val_main_v12`, a
  scatter-add over a gather, which stays one unopened term here) plus the self-loop weight, broadcast from its one
  cell to every entry, times the node features. Read at an index that is `rep = agg + eps · x`.

  Its first result is the stage `val_main_v20`: the contraction of `rep` with the weight over the 64 features, plus the
  bias broadcast down the rows. Read at an index that is `out = rep · w + b`.
-/
import proofs.«169123_j62586263437744_2_alg».proof.Proof.Gen.ReferenceIdeal.Read
import proofs.«169123_j62586263437744_2_alg».proof.Proof.NodeUpdate

noncomputable section

namespace Cert.ReferenceIdeal.RefValue

open Cert.ReferenceIdeal Cert.ReferenceIdeal.Read Idealize.ShloMosaic Idealize.ShloMosaic.ValueIdx
open scoped BigOperators

/-! ## The broadcasts' source indices, by coordinates -/

/-- The self-loop weight's one cell, reached through the two broadcasts [1] → [1, 1] → [100000, 64]. -/
theorem eps_idx (i : S100000x64.Idx) : idx_main_v13 (idx_main_v14 i) = ix1 0 :=
  funext fun a => Fin.ext (by match a with | ⟨0, _⟩ => rfl)

/-- The bias entry of column `i 1`, reached through the two broadcasts [64] → [1, 64] → [100000, 64]. -/
theorem bias_idx (i : S100000x64.Idx) : idx_main_v18 (idx_main_v19 i) = ix1 (i 1) :=
  funext fun a => Fin.ext (by match a with | ⟨0, _⟩ => rfl)

/-- The left factor of the contraction's term `k`: row `i 0`, feature `k`. -/
theorem lhs_idx (i : S100000x64.Idx) (k : Fin 64) : lidx_main_v17 i k = ix2 (i 0) k :=
  funext fun a => Fin.ext (by match a with | ⟨0, _⟩ => rfl | ⟨1, _⟩ => rfl)

/-- The right factor of the contraction's term `k`: weight row `k`, column `i 1`. -/
theorem rhs_idx (i : S100000x64.Idx) (k : Fin 64) : ridx_main_v17 i k = ix2 k (i 1) :=
  funext fun a => Fin.ext (by match a with | ⟨0, _⟩ => rfl | ⟨1, _⟩ => rfl)

/-! ## The two results -/

/-- The reference's second result is `rep = agg + eps · x`, with `agg` the unopened neighbour sum. -/
theorem rep_eq (x0 : (⟨S100000x64, .f32⟩ : BufTy).Contents (Elt Ideal)) (x1 x2 : (⟨S1600000, .i32⟩ : BufTy).Contents (Elt Ideal))
    (x3 : (⟨S1600000, .f32⟩ : BufTy).Contents (Elt Ideal)) (x5 : (⟨S1, .f32⟩ : BufTy).Contents (Elt Ideal)) :
    val_main_v16 (F := Ideal) x0 x1 x2 x3 x5 = Cert.NodeUpdate.rep (val_main_v12 (F := Ideal) x0 x1 x2 x3) x0 x5 := by
  funext i
  rw [val_main_v16_apply, val_main_v15_apply, val_main_v14_apply, val_main_v13_apply]
  simp only [eps_idx, Ideal.addf_def, Ideal.mulf_def]
  rfl

/-- The reference's first result is `out = rep · w + b`. -/
theorem out_eq (x0 : (⟨S100000x64, .f32⟩ : BufTy).Contents (Elt Ideal)) (x1 x2 : (⟨S1600000, .i32⟩ : BufTy).Contents (Elt Ideal))
    (x3 : (⟨S1600000, .f32⟩ : BufTy).Contents (Elt Ideal)) (x4 : (⟨S64x64, .f32⟩ : BufTy).Contents (Elt Ideal))
    (x5 : (⟨S1, .f32⟩ : BufTy).Contents (Elt Ideal)) (x6 : (⟨S64, .f32⟩ : BufTy).Contents (Elt Ideal)) :
    val_main_v20 (F := Ideal) x0 x1 x2 x3 x4 x5 x6
      = Cert.NodeUpdate.out (Cert.NodeUpdate.rep (val_main_v12 (F := Ideal) x0 x1 x2 x3) x0 x5) x4 x6 := by
  funext i
  rw [val_main_v20_apply, val_main_v17_apply, val_main_v19_apply, val_main_v18_apply, rep_eq]
  simp only [bias_idx, lhs_idx, rhs_idx, Ideal.addf_def]
  rfl

end Cert.ReferenceIdeal.RefValue

end
-- ==== Proof.SharedSum.lean ====
/-
  The neighbour sum is one function on both sides.

  Both programs compute the neighbour sum of every node by the same operations in the same order: the edge
  weights as a column, the edges' target indices with a negative index counted from the end, the gather of the
  targets' rows, the product, and the scatter-add keyed by the edges' sources into zeros. Each program prints its
  own copy of the operations' dimension records, and the copies hold the same numbers; so the reference's stage
  for the scatter-add and the function the kernel's operand 0 packs are the same function of the arguments. It is
  compared as a whole and never read at an entry.
-/
import proofs.«169123_j62586263437744_2_alg».proof.Proof.Operands
import proofs.«169123_j62586263437744_2_alg».proof.Proof.Gen.ReferenceIdeal.Read

noncomputable section

namespace Cert.SharedSum

open Idealize.ShloMosaic

/-- The reference's scatter-add stage is the kernel side's neighbour sum. -/
theorem stage_eq (x : (⟨Cert.KernelIdeal.S100000x64, .f32⟩ : BufTy).Contents (Elt Ideal))
    (src dst : (⟨Cert.KernelIdeal.S1600000, .i32⟩ : BufTy).Contents (Elt Ideal))
    (val : (⟨Cert.KernelIdeal.S1600000, .f32⟩ : BufTy).Contents (Elt Ideal)) :
    Cert.ReferenceIdeal.Read.val_main_v12 (F := Ideal) x src dst val = Cert.KernelIdeal.Operands.neighbourSum x src dst val := by
  unfold Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_cst Cert.ReferenceIdeal.Read.val_main_c
    Cert.ReferenceIdeal.Read.val_main_c_0 Cert.KernelIdeal.Operands.neighbourSum
  rfl

end Cert.SharedSum

end
-- ==== Proof.lean ====
/-
  One graph layer's node update, a fused kernel against its plain description: equal on the extended reals.

  Both programs first form the neighbour sum of every node, agg = scatter-add over the edges' sources of
  (edge weight) · (row of the edge's target), by the same host operations. The reference then computes

      rep = agg + eps · x            out = rep · w + b            ([100000, 64] arrays, w a [64, 64] weight)

  The kernel does the same arithmetic on PACKED rows: two consecutive node rows side by side as one row of 128
  lanes (a row-major reshape, which moves nothing), in ten blocks of 5000 packed rows, against the [128, 128]
  block-diagonal matrix of two copies of w and the bias written twice, and reshapes its two outputs back.

  Why the two agree at every extended-real input: unpacking a packed row-pair gives back the two node rows
  (the two reshapes are inverse re-readings of one row-major order); and the contraction of a packed row with a
  column of the block-diagonal matrix is the contraction of ONE of its two halves with the matching column of w,
  because the other half meets only zeros and v · 0 = 0 for every extended real v, the infinite ones included.
  Splitting the sum over 128 lanes into its two halves only uses that addition is commutative and associative.
  No cancellation and no distributivity is used, so the finiteness of the inputs is never opened. The neighbour
  sum is carried as one function of the arguments on both sides and never read at an entry.

  The three frames: the two kernel programs' are the generated frame certificates; the reference has no kernel
  and its frame is its generated run with the results dropped. The idealization rewrote no operation, so there
  is nothing to preserve.
-/
import proofs.«169123_j62586263437744_2_alg».proof.Defs
import proofs.«169123_j62586263437744_2_alg».proof.Proof.Gen.Kernel
import proofs.«169123_j62586263437744_2_alg».proof.Proof.Gen.Kernel.Skeleton
import proofs.«169123_j62586263437744_2_alg».proof.Proof.Gen.Kernel.Launch
import proofs.«169123_j62586263437744_2_alg».proof.Proof.Gen.Kernel.Points
import proofs.«169123_j62586263437744_2_alg».proof.Proof.Gen.Kernel.Frame
import proofs.«169123_j62586263437744_2_alg».proof.Proof.Gen.KernelIdeal
import proofs.«169123_j62586263437744_2_alg».proof.Proof.Gen.KernelIdeal.Skeleton
import proofs.«169123_j62586263437744_2_alg».proof.Proof.Gen.KernelIdeal.Launch
import proofs.«169123_j62586263437744_2_alg».proof.Proof.Gen.KernelIdeal.Points
import proofs.«169123_j62586263437744_2_alg».proof.Proof.Gen.KernelIdeal.Frame
import proofs.«169123_j62586263437744_2_alg».proof.Proof.Gen.ReferenceIdeal
import proofs.«169123_j62586263437744_2_alg».proof.Proof.Gen.ReferenceIdeal.Run
import proofs.«169123_j62586263437744_2_alg».proof.Proof.Gen.ReferenceIdeal.Read
import proofs.«169123_j62586263437744_2_alg».proof.Proof.Gen.Pre_finite_inputs
import proofs.«169123_j62586263437744_2_alg».proof.Proof.KernelValue
import proofs.«169123_j62586263437744_2_alg».proof.Proof.ReferenceValue
import proofs.«169123_j62586263437744_2_alg».proof.Proof.SharedSum
import Idealize.ShloMosaic.Adequacy
import Idealize.ShloMosaic.Init

noncomputable section

namespace Cert.Proof

open Idealize.ShloMosaic Idealize.SL.Sem

/-- The kernel's program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both programs end with out = rep · w + b and rep = agg + eps · x of those arguments. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    rw [Cert.ReferenceIdeal.Read.val_main_v20_eq, Cert.ReferenceIdeal.RefValue.out_eq, Cert.SharedSum.stage_eq,
      h0, h1, h2, h3, h4, h5, h6]
  · obtain ⟨h0, h1, h2, h3, h4, h5, h6⟩ := hagree c
    rw [Cert.ReferenceIdeal.Read.val_main_v16_eq, Cert.ReferenceIdeal.RefValue.rep_eq, Cert.SharedSum.stage_eq,
      h0, h1, h2, h3, h5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
